-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S26x1024x1000 : Shape := ⟨3, ![26, 1024, 1000]⟩
abbrev S26x16x1000 : Shape := ⟨3, ![26, 16, 1000]⟩
abbrev S_ : Shape := ⟨0, ![]⟩

class Facts : Prop where
  bcast_S_S26x1024x1000 : S_.BroadcastsInDim S26x1024x1000 (![] : Fin 0 → Fin S26x1024x1000.rank)
  reducesTo_S26x1024x1000_S_d0_1_2 : S26x1024x1000.ReducesTo [0, 1, 2] S_
  h_S_ : 0 < S_.numel
  bcast_S_S26x16x1000 : S_.BroadcastsInDim S26x16x1000 (![] : Fin 0 → Fin S26x16x1000.rank)
  reducesTo_S26x16x1000_S_d0_1_2 : S26x16x1000.ReducesTo [0, 1, 2] S_

variable [Facts]

def fn {F : FTy → Type} [FloatOps F] (main_arg0 : FVec F S26x1024x1000 .f32) (main_arg1 : FVec F S26x16x1000 .f32) : IVec S_ 1 :=
  let main_v0 : FVec F S26x1024x1000 .f32 := Host.absf main_arg0
  let main_cst : FVec F S_ .f32 := constant S_ .f32 0x7F800000#32
  let main_v1 : FVec F S26x1024x1000 .f32 := broadcastInDim S26x1024x1000 ![] bcast_S_S26x1024x1000 main_cst
  let main_v2 : IVec S26x1024x1000 1 := cmpf .olt main_v0 main_v1
  let main_c : IVec S_ 1 := constantI S_ 1 1#1
  let main_v3 : IVec S_ 1 := (fun x v => Host.reduce IntOp.andi x v reducesTo_S26x1024x1000_S_d0_1_2 h_S_) main_v2 main_c
  let main_v4 : FVec F S26x16x1000 .f32 := Host.absf main_arg1
  let main_cst_0 : FVec F S_ .f32 := constant S_ .f32 0x7F800000#32
  let main_v5 : FVec F S26x16x1000 .f32 := broadcastInDim S26x16x1000 ![] bcast_S_S26x16x1000 main_cst_0
  let main_v6 : IVec S26x16x1000 1 := cmpf .olt main_v4 main_v5
  let main_c_1 : IVec S_ 1 := constantI S_ 1 1#1
  let main_v7 : IVec S_ 1 := (fun x v => Host.reduce IntOp.andi x v reducesTo_S26x16x1000_S_d0_1_2 h_S_) main_v6 main_c_1
  let main_v8 : IVec S_ 1 := andi main_v3 main_v7
  main_v8
-- ==== Kernel.lean ====
abbrev S26x1024x1000 : Shape := ⟨3, ![26, 1024, 1000]⟩
abbrev S26x16x1000 : Shape := ⟨3, ![26, 16, 1000]⟩
abbrev S26x1024x16 : Shape := ⟨3, ![26, 1024, 16]⟩
abbrev S1024x16x26 : Shape := ⟨3, ![1024, 16, 26]⟩
abbrev S1x256x1000 : Shape := ⟨3, ![1, 256, 1000]⟩
abbrev S1x16x1000 : Shape := ⟨3, ![1, 16, 1000]⟩
abbrev S1x256x16 : Shape := ⟨3, ![1, 256, 16]⟩
abbrev S256x1000 : Shape := ⟨2, ![256, 1000]⟩
abbrev S16x1000 : Shape := ⟨2, ![16, 1000]⟩
abbrev S256x16 : Shape := ⟨2, ![256, 16]⟩

abbrev nBuf : Space → Nat
  | .hbm => 4
  | .vmem => 6
  | .smem => 0
  | _ => 0

abbrev bufTy : (tb : Table) → Fin (tcTables nBuf tb) → BufTy
  | .hbm, ⟨0, _⟩ => ⟨S26x1024x1000, .f32⟩
  | .hbm, ⟨1, _⟩ => ⟨S26x16x1000, .f32⟩
  | .hbm, ⟨2, _⟩ => ⟨S26x1024x16, .f32⟩
  | .hbm, ⟨3, _⟩ => ⟨S1024x16x26, .f32⟩
  | .local _ .vmem, ⟨0, _⟩ => ⟨S1x256x1000, .f32⟩
  | .local _ .vmem, ⟨1, _⟩ => ⟨S1x256x1000, .f32⟩
  | .local _ .vmem, ⟨2, _⟩ => ⟨S1x16x1000, .f32⟩
  | .local _ .vmem, ⟨3, _⟩ => ⟨S1x16x1000, .f32⟩
  | .local _ .vmem, ⟨4, _⟩ => ⟨S1x256x16, .f32⟩
  | .local _ .vmem, ⟨5, _⟩ => ⟨S1x256x16, .f32⟩
  | _, _ => ⟨S26x1024x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![26, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S26x1024x16_S1024x16x26_1_2_0 : S26x1024x16.Transposes [1, 2, 0] S1024x16x26
  inb_S1x256x1000_S1x256x1000_0_0_0 : ∀ a, (![0, 0, 0] : Fin 3 → Nat) a + S1x256x1000.size a ≤ S1x256x1000.size a
  h_S1x256x1000 : 0 < S1x256x1000.numel
  shapeCasts_S1x256x1000_S256x1000 : S1x256x1000.ShapeCasts S256x1000
  bitsLt_bf16_f32 : FTy.bits .bf16 < FTy.bits .f32
  inb_S1x16x1000_S1x16x1000_0_0_0 : ∀ a, (![0, 0, 0] : Fin 3 → Nat) a + S1x16x1000.size a ≤ S1x16x1000.size a
  h_S1x16x1000 : 0 < S1x16x1000.numel
  shapeCasts_S1x16x1000_S16x1000 : S1x16x1000.ShapeCasts S16x1000
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  shapeCasts_S256x16_S1x256x16 : S256x16.ShapeCasts S1x256x16
  dot_S256x1000_S16x1000_S256x16_1_1_0_0_n_n_wf : DotDims.WF S256x1000 S16x1000 S256x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1000.size a ≤ S26x1024x1000.size a
  hwx0_0 : ∀ i : grid0.Coords, EltTy.bits .f32 = 32 ∨ (Rect.block (s := S26x1024x1000) S1x256x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x1000.size a ≤ S26x16x1000.size a
  hwx0_1 : ∀ i : grid0.Coords, EltTy.bits .f32 = 32 ∨ (Rect.block (s := S26x16x1000) S1x16x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x16.size a ≤ S26x1024x16.size a
  hwx0_2 : ∀ i : grid0.Coords, EltTy.bits .f32 = 32 ∨ (Rect.block (s := S26x1024x16) S1x256x16.size (cc0_transform_2 i) (hinb0_2 i)).WholeWords (EltTy.packing .f32)

variable [Facts₀]

def dot_S256x1000_S16x1000_S256x16_1_1_0_0_n_n : DotDims S256x1000 S16x1000 S256x16 where
  lhsContracting := [1]
  rhsContracting := [1]
  lhsNonContracting := [0]
  rhsNonContracting := [0]
  lhsBatch := []
  rhsBatch := []
  wf := dot_S256x1000_S16x1000_S256x16_1_1_0_0_n_n_wf

abbrev win0_0 : Pipeline.Window sig grid0 :=
  Pipeline.Window.ofSpec (Memref.whole main_arg0) S1x256x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x256x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S26x1024x1000 : Shape := ⟨3, ![26, 1024, 1000]⟩
abbrev S26x16x1000 : Shape := ⟨3, ![26, 16, 1000]⟩
abbrev S1x1024x1000 : Shape := ⟨3, ![1, 1024, 1000]⟩
abbrev S1024x1000 : Shape := ⟨2, ![1024, 1000]⟩
abbrev S1x16x1000 : Shape := ⟨3, ![1, 16, 1000]⟩
abbrev S16x1000 : Shape := ⟨2, ![16, 1000]⟩
abbrev S1000x16 : Shape := ⟨2, ![1000, 16]⟩
abbrev S1024x16 : Shape := ⟨2, ![1024, 16]⟩
abbrev S1024x16x1 : Shape := ⟨3, ![1024, 16, 1]⟩
abbrev S1024x16x16 : Shape := ⟨3, ![1024, 16, 16]⟩
abbrev S1024x16x10 : Shape := ⟨3, ![1024, 16, 10]⟩
abbrev S1024x16x26 : Shape := ⟨3, ![1024, 16, 26]⟩

abbrev nBuf : Space → Nat
  | .hbm => 187
  | .vmem => 0
  | .smem => 0
  | _ => 0

abbrev hbmTy0_0 (i : Nat) : BufTy := match i % 128 with
  | 0 => ⟨S26x1024x1000, .f32⟩
  | 1 => ⟨S26x16x1000, .f32⟩
  | 2 => ⟨S1x1024x1000, .f32⟩
  | 3 => ⟨S1024x1000, .f32⟩
  | 4 => ⟨S1x1024x1000, .f32⟩
  | 5 => ⟨S1024x1000, .f32⟩
  | 6 => ⟨S1x1024x1000, .f32⟩
  | 7 => ⟨S1024x1000, .f32⟩
  | 8 => ⟨S1x1024x1000, .f32⟩
  | 9 => ⟨S1024x1000, .f32⟩
  | 10 => ⟨S1x1024x1000, .f32⟩
  | 11 => ⟨S1024x1000, .f32⟩
  | 12 => ⟨S1x1024x1000, .f32⟩
  | 13 => ⟨S1024x1000, .f32⟩
  | 14 => ⟨S1x1024x1000, .f32⟩
  | 15 => ⟨S1024x1000, .f32⟩
  | 16 => ⟨S1x1024x1000, .f32⟩
  | 17 => ⟨S1024x1000, .f32⟩
  | 18 => ⟨S1x1024x1000, .f32⟩
  | 19 => ⟨S1024x1000, .f32⟩
  | 20 => ⟨S1x1024x1000, .f32⟩
  | 21 => ⟨S1024x1000, .f32⟩
  | 22 => ⟨S1x1024x1000, .f32⟩
  | 23 => ⟨S1024x1000, .f32⟩
  | 24 => ⟨S1x1024x1000, .f32⟩
  | 25 => ⟨S1024x1000, .f32⟩
  | 26 => ⟨S1x1024x1000, .f32⟩
  | 27 => ⟨S1024x1000, .f32⟩
  | 28 => ⟨S1x1024x1000, .f32⟩
  | 29 => ⟨S1024x1000, .f32⟩
  | 30 => ⟨S1x1024x1000, .f32⟩
  | 31 => ⟨S1024x1000, .f32⟩
  | 32 => ⟨S1x1024x1000, .f32⟩
  | 33 => ⟨S1024x1000, .f32⟩
  | 34 => ⟨S1x1024x1000, .f32⟩
  | 35 => ⟨S1024x1000, .f32⟩
  | 36 => ⟨S1x1024x1000, .f32⟩
  | 37 => ⟨S1024x1000, .f32⟩
  | 38 => ⟨S1x1024x1000, .f32⟩
  | 39 => ⟨S1024x1000, .f32⟩
  | 40 => ⟨S1x1024x1000, .f32⟩
  | 41 => ⟨S1024x1000, .f32⟩
  | 42 => ⟨S1x1024x1000, .f32⟩
  | 43 => ⟨S1024x1000, .f32⟩
  | 44 => ⟨S1x1024x1000, .f32⟩
  | 45 => ⟨S1024x1000, .f32⟩
  | 46 => ⟨S1x1024x1000, .f32⟩
  | 47 => ⟨S1024x1000, .f32⟩
  | 48 => ⟨S1x1024x1000, .f32⟩
  | 49 => ⟨S1024x1000, .f32⟩
  | 50 => ⟨S1x1024x1000, .f32⟩
  | 51 => ⟨S1024x1000, .f32⟩
  | 52 => ⟨S1x1024x1000, .f32⟩
  | 53 => ⟨S1024x1000, .f32⟩
  | 54 => ⟨S1x16x1000, .f32⟩
  | 55 => ⟨S16x1000, .f32⟩
  | 56 => ⟨S1x16x1000, .f32⟩
  | 57 => ⟨S16x1000, .f32⟩
  | 58 => ⟨S1x16x1000, .f32⟩
  | 59 => ⟨S16x1000, .f32⟩
  | 60 => ⟨S1x16x1000, .f32⟩
  | 61 => ⟨S16x1000, .f32⟩
  | 62 => ⟨S1x16x1000, .f32⟩
  | 63 => ⟨S16x1000, .f32⟩
  | 64 => ⟨S1x16x1000, .f32⟩
  | 65 => ⟨S16x1000, .f32⟩
  | 66 => ⟨S1x16x1000, .f32⟩
  | 67 => ⟨S16x1000, .f32⟩
  | 68 => ⟨S1x16x1000, .f32⟩
  | 69 => ⟨S16x1000, .f32⟩
  | 70 => ⟨S1x16x1000, .f32⟩
  | 71 => ⟨S16x1000, .f32⟩
  | 72 => ⟨S1x16x1000, .f32⟩
  | 73 => ⟨S16x1000, .f32⟩
  | 74 => ⟨S1x16x1000, .f32⟩
  | 75 => ⟨S16x1000, .f32⟩
  | 76 => ⟨S1x16x1000, .f32⟩
  | 77 => ⟨S16x1000, .f32⟩
  | 78 => ⟨S1x16x1000, .f32⟩
  | 79 => ⟨S16x1000, .f32⟩
  | 80 => ⟨S1x16x1000, .f32⟩
  | 81 => ⟨S16x1000, .f32⟩
  | 82 => ⟨S1x16x1000, .f32⟩
  | 83 => ⟨S16x1000, .f32⟩
  | 84 => ⟨S1x16x1000, .f32⟩
  | 85 => ⟨S16x1000, .f32⟩
  | 86 => ⟨S1x16x1000, .f32⟩
  | 87 => ⟨S16x1000, .f32⟩
  | 88 => ⟨S1x16x1000, .f32⟩
  | 89 => ⟨S16x1000, .f32⟩
  | 90 => ⟨S1x16x1000, .f32⟩
  | 91 => ⟨S16x1000, .f32⟩
  | 92 => ⟨S1x16x1000, .f32⟩
  | 93 => ⟨S16x1000, .f32⟩
  | 94 => ⟨S1x16x1000, .f32⟩
  | 95 => ⟨S16x1000, .f32⟩
  | 96 => ⟨S1x16x1000, .f32⟩
  | 97 => ⟨S16x1000, .f32⟩
  | 98 => ⟨S1x16x1000, .f32⟩
  | 99 => ⟨S16x1000, .f32⟩
  | 100 => ⟨S1x16x1000, .f32⟩
  | 101 => ⟨S16x1000, .f32⟩
  | 102 => ⟨S1x16x1000, .f32⟩
  | 103 => ⟨S16x1000, .f32⟩
  | 104 => ⟨S1x16x1000, .f32⟩
  | 105 => ⟨S16x1000, .f32⟩
  | 106 => ⟨S1000x16, .f32⟩
  | 107 => ⟨S1024x16, .f32⟩
  | 108 => ⟨S1000x16, .f32⟩
  | 109 => ⟨S1024x16, .f32⟩
  | 110 => ⟨S1000x16, .f32⟩
  | 111 => ⟨S1024x16, .f32⟩
  | 112 => ⟨S1000x16, .f32⟩
  | 113 => ⟨S1024x16, .f32⟩
  | 114 => ⟨S1000x16, .f32⟩
  | 115 => ⟨S1024x16, .f32⟩
  | 116 => ⟨S1000x16, .f32⟩
  | 117 => ⟨S1024x16, .f32⟩
  | 118 => ⟨S1000x16, .f32⟩
  | 119 => ⟨S1024x16, .f32⟩
  | 120 => ⟨S1000x16, .f32⟩
  | 121 => ⟨S1024x16, .f32⟩
  | 122 => ⟨S1000x16, .f32⟩
  | 123 => ⟨S1024x16, .f32⟩
  | 124 => ⟨S1000x16, .f32⟩
  | 125 => ⟨S1024x16, .f32⟩
  | 126 => ⟨S1000x16, .f32⟩
  | 127 => ⟨S1024x16, .f32⟩
  | _ => ⟨S26x1024x1000, .f32⟩

abbrev hbmTy0_1 (i : Nat) : BufTy := match i % 128 with
  | 0 => ⟨S1000x16, .f32⟩
  | 1 => ⟨S1024x16, .f32⟩
  | 2 => ⟨S1000x16, .f32⟩
  | 3 => ⟨S1024x16, .f32⟩
  | 4 => ⟨S1000x16, .f32⟩
  | 5 => ⟨S1024x16, .f32⟩
  | 6 => ⟨S1000x16, .f32⟩
  | 7 => ⟨S1024x16, .f32⟩
  | 8 => ⟨S1000x16, .f32⟩
  | 9 => ⟨S1024x16, .f32⟩
  | 10 => ⟨S1000x16, .f32⟩
  | 11 => ⟨S1024x16, .f32⟩
  | 12 => ⟨S1000x16, .f32⟩
  | 13 => ⟨S1024x16, .f32⟩
  | 14 => ⟨S1000x16, .f32⟩
  | 15 => ⟨S1024x16, .f32⟩
  | 16 => ⟨S1000x16, .f32⟩
  | 17 => ⟨S1024x16, .f32⟩
  | 18 => ⟨S1000x16, .f32⟩
  | 19 => ⟨S1024x16, .f32⟩
  | 20 => ⟨S1000x16, .f32⟩
  | 21 => ⟨S1024x16, .f32⟩
  | 22 => ⟨S1000x16, .f32⟩
  | 23 => ⟨S1024x16, .f32⟩
  | 24 => ⟨S1000x16, .f32⟩
  | 25 => ⟨S1024x16, .f32⟩
  | 26 => ⟨S1000x16, .f32⟩
  | 27 => ⟨S1024x16, .f32⟩
  | 28 => ⟨S1000x16, .f32⟩
  | 29 => ⟨S1024x16, .f32⟩
  | 30 => ⟨S1024x16x1, .f32⟩
  | 31 => ⟨S1024x16x1, .f32⟩
  | 32 => ⟨S1024x16x1, .f32⟩
  | 33 => ⟨S1024x16x1, .f32⟩
  | 34 => ⟨S1024x16x1, .f32⟩
  | 35 => ⟨S1024x16x1, .f32⟩
  | 36 => ⟨S1024x16x1, .f32⟩
  | 37 => ⟨S1024x16x1, .f32⟩
  | 38 => ⟨S1024x16x1, .f32⟩
  | 39 => ⟨S1024x16x1, .f32⟩
  | 40 => ⟨S1024x16x1, .f32⟩
  | 41 => ⟨S1024x16x1, .f32⟩
  | 42 => ⟨S1024x16x1, .f32⟩
  | 43 => ⟨S1024x16x1, .f32⟩
  | 44 => ⟨S1024x16x1, .f32⟩
  | 45 => ⟨S1024x16x1, .f32⟩
  | 46 => ⟨S1024x16x1, .f32⟩
  | 47 => ⟨S1024x16x1, .f32⟩
  | 48 => ⟨S1024x16x1, .f32⟩
  | 49 => ⟨S1024x16x1, .f32⟩
  | 50 => ⟨S1024x16x1, .f32⟩
  | 51 => ⟨S1024x16x1, .f32⟩
  | 52 => ⟨S1024x16x1, .f32⟩
  | 53 => ⟨S1024x16x1, .f32⟩
  | 54 => ⟨S1024x16x1, .f32⟩
  | 55 => ⟨S1024x16x1, .f32⟩
  | 56 => ⟨S1024x16x16, .f32⟩
  | 57 => ⟨S1024x16x10, .f32⟩
  | 58 => ⟨S1024x16x26, .f32⟩
  | _ => ⟨S26x1024x1000, .f32⟩

abbrev hbmTy (i : Nat) : BufTy := match i / 128 with
  | 0 => hbmTy0_0 i
  | 1 => hbmTy0_1 i
  | _ => ⟨S26x1024x1000, .f32⟩

abbrev bufTy : (tb : Table) → Fin (tcTables nBuf tb) → BufTy
  | .hbm, ⟨i, _⟩ => hbmTy i
  | _, _ => ⟨S26x1024x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147 : Ref sig .tc := ⟨.hbm, 149, rfl⟩
abbrev main_v148 : Ref sig .tc := ⟨.hbm, 150, rfl⟩
abbrev main_v149 : Ref sig .tc := ⟨.hbm, 151, rfl⟩
abbrev main_v150 : Ref sig .tc := ⟨.hbm, 152, rfl⟩
abbrev main_v151 : Ref sig .tc := ⟨.hbm, 153, rfl⟩
abbrev main_v152 : Ref sig .tc := ⟨.hbm, 154, rfl⟩
abbrev main_v153 : Ref sig .tc := ⟨.hbm, 155, rfl⟩
abbrev main_v154 : Ref sig .tc := ⟨.hbm, 156, rfl⟩
abbrev main_v155 : Ref sig .tc := ⟨.hbm, 157, rfl⟩
abbrev main_v156 : Ref sig .tc := ⟨.hbm, 158, rfl⟩
abbrev main_v157 : Ref sig .tc := ⟨.hbm, 159, rfl⟩
abbrev main_v158 : Ref sig .tc := ⟨.hbm, 160, rfl⟩
abbrev main_v159 : Ref sig .tc := ⟨.hbm, 161, rfl⟩
abbrev main_v160 : Ref sig .tc := ⟨.hbm, 162, rfl⟩
abbrev main_v161 : Ref sig .tc := ⟨.hbm, 163, rfl⟩
abbrev main_v162 : Ref sig .tc := ⟨.hbm, 164, rfl⟩
abbrev main_v163 : Ref sig .tc := ⟨.hbm, 165, rfl⟩
abbrev main_v164 : Ref sig .tc := ⟨.hbm, 166, rfl⟩
abbrev main_v165 : Ref sig .tc := ⟨.hbm, 167, rfl⟩
abbrev main_v166 : Ref sig .tc := ⟨.hbm, 168, rfl⟩
abbrev main_v167 : Ref sig .tc := ⟨.hbm, 169, rfl⟩
abbrev main_v168 : Ref sig .tc := ⟨.hbm, 170, rfl⟩
abbrev main_v169 : Ref sig .tc := ⟨.hbm, 171, rfl⟩
abbrev main_v170 : Ref sig .tc := ⟨.hbm, 172, rfl⟩
abbrev main_v171 : Ref sig .tc := ⟨.hbm, 173, rfl⟩
abbrev main_v172 : Ref sig .tc := ⟨.hbm, 174, rfl⟩
abbrev main_v173 : Ref sig .tc := ⟨.hbm, 175, rfl⟩
abbrev main_v174 : Ref sig .tc := ⟨.hbm, 176, rfl⟩
abbrev main_v175 : Ref sig .tc := ⟨.hbm, 177, rfl⟩
abbrev main_v176 : Ref sig .tc := ⟨.hbm, 178, rfl⟩
abbrev main_v177 : Ref sig .tc := ⟨.hbm, 179, rfl⟩
abbrev main_v178 : Ref sig .tc := ⟨.hbm, 180, rfl⟩
abbrev main_v179 : Ref sig .tc := ⟨.hbm, 181, rfl⟩
abbrev main_v180 : Ref sig .tc := ⟨.hbm, 182, rfl⟩
abbrev main_v181 : Ref sig .tc := ⟨.hbm, 183, rfl⟩
abbrev main_v182 : Ref sig .tc := ⟨.hbm, 184, rfl⟩
abbrev main_v183 : Ref sig .tc := ⟨.hbm, 185, rfl⟩
abbrev main_v184 : Ref sig .tc := ⟨.hbm, 186, rfl⟩

abbrev nD : Nat := 1
abbrev τ : Topo := Topo.v7x

variable {F : FTy → Type} [FloatOps F]

class Facts₀ : Prop where
  slices_S26x1024x1000_S1x1024x1000_0_0_0 : S26x1024x1000.Slices ![0, 0, 0] S1x1024x1000
  shapeCasts_S1x1024x1000_S1024x1000 : S1x1024x1000.ShapeCasts S1024x1000
  slices_S26x1024x1000_S1x1024x1000_1_0_0 : S26x1024x1000.Slices ![1, 0, 0] S1x1024x1000
  slices_S26x1024x1000_S1x1024x1000_2_0_0 : S26x1024x1000.Slices ![2, 0, 0] S1x1024x1000
  slices_S26x1024x1000_S1x1024x1000_3_0_0 : S26x1024x1000.Slices ![3, 0, 0] S1x1024x1000
  slices_S26x1024x1000_S1x1024x1000_4_0_0 : S26x1024x1000.Slices ![4, 0, 0] S1x1024x1000
  slices_S26x1024x1000_S1x1024x1000_5_0_0 : S26x1024x1000.Slices ![5, 0, 0] S1x1024x1000
  slices_S26x1024x1000_S1x1024x1000_6_0_0 : S26x1024x1000.Slices ![6, 0, 0] S1x1024x1000
  slices_S26x1024x1000_S1x1024x1000_7_0_0 : S26x1024x1000.Slices ![7, 0, 0] S1x1024x1000
  slices_S26x1024x1000_S1x1024x1000_8_0_0 : S26x1024x1000.Slices ![8, 0, 0] S1x1024x1000
  slices_S26x1024x1000_S1x1024x1000_9_0_0 : S26x1024x1000.Slices ![9, 0, 0] S1x1024x1000
  slices_S26x1024x1000_S1x1024x1000_10_0_0 : S26x1024x1000.Slices ![10, 0, 0] S1x1024x1000
  slices_S26x1024x1000_S1x1024x1000_11_0_0 : S26x1024x1000.Slices ![11, 0, 0] S1x1024x1000
  slices_S26x1024x1000_S1x1024x1000_12_0_0 : S26x1024x1000.Slices ![12, 0, 0] S1x1024x1000
  slices_S26x1024x1000_S1x1024x1000_13_0_0 : S26x1024x1000.Slices ![13, 0, 0] S1x1024x1000
  slices_S26x1024x1000_S1x1024x1000_14_0_0 : S26x1024x1000.Slices ![14, 0, 0] S1x1024x1000
  slices_S26x1024x1000_S1x1024x1000_15_0_0 : S26x1024x1000.Slices ![15, 0, 0] S1x1024x1000
  slices_S26x1024x1000_S1x1024x1000_16_0_0 : S26x1024x1000.Slices ![16, 0, 0] S1x1024x1000
  slices_S26x1024x1000_S1x1024x1000_17_0_0 : S26x1024x1000.Slices ![17, 0, 0] S1x1024x1000
  slices_S26x1024x1000_S1x1024x1000_18_0_0 : S26x1024x1000.Slices ![18, 0, 0] S1x1024x1000
  slices_S26x1024x1000_S1x1024x1000_19_0_0 : S26x1024x1000.Slices ![19, 0, 0] S1x1024x1000
  slices_S26x1024x1000_S1x1024x1000_20_0_0 : S26x1024x1000.Slices ![20, 0, 0] S1x1024x1000
  slices_S26x1024x1000_S1x1024x1000_21_0_0 : S26x1024x1000.Slices ![21, 0, 0] S1x1024x1000
  slices_S26x1024x1000_S1x1024x1000_22_0_0 : S26x1024x1000.Slices ![22, 0, 0] S1x1024x1000
  slices_S26x1024x1000_S1x1024x1000_23_0_0 : S26x1024x1000.Slices ![23, 0, 0] S1x1024x1000
  slices_S26x1024x1000_S1x1024x1000_24_0_0 : S26x1024x1000.Slices ![24, 0, 0] S1x1024x1000
  slices_S26x1024x1000_S1x1024x1000_25_0_0 : S26x1024x1000.Slices ![25, 0, 0] S1x1024x1000
  slices_S26x16x1000_S1x16x1000_0_0_0 : S26x16x1000.Slices ![0, 0, 0] S1x16x1000
  shapeCasts_S1x16x1000_S16x1000 : S1x16x1000.ShapeCasts S16x1000
  slices_S26x16x1000_S1x16x1000_1_0_0 : S26x16x1000.Slices ![1, 0, 0] S1x16x1000
  slices_S26x16x1000_S1x16x1000_2_0_0 : S26x16x1000.Slices ![2, 0, 0] S1x16x1000
  slices_S26x16x1000_S1x16x1000_3_0_0 : S26x16x1000.Slices ![3, 0, 0] S1x16x1000
  slices_S26x16x1000_S1x16x1000_4_0_0 : S26x16x1000.Slices ![4, 0, 0] S1x16x1000
  slices_S26x16x1000_S1x16x1000_5_0_0 : S26x16x1000.Slices ![5, 0, 0] S1x16x1000
  slices_S26x16x1000_S1x16x1000_6_0_0 : S26x16x1000.Slices ![6, 0, 0] S1x16x1000
  slices_S26x16x1000_S1x16x1000_7_0_0 : S26x16x1000.Slices ![7, 0, 0] S1x16x1000
  slices_S26x16x1000_S1x16x1000_8_0_0 : S26x16x1000.Slices ![8, 0, 0] S1x16x1000
  slices_S26x16x1000_S1x16x1000_9_0_0 : S26x16x1000.Slices ![9, 0, 0] S1x16x1000
  slices_S26x16x1000_S1x16x1000_10_0_0 : S26x16x1000.Slices ![10, 0, 0] S1x16x1000
  slices_S26x16x1000_S1x16x1000_11_0_0 : S26x16x1000.Slices ![11, 0, 0] S1x16x1000
  slices_S26x16x1000_S1x16x1000_12_0_0 : S26x16x1000.Slices ![12, 0, 0] S1x16x1000
  slices_S26x16x1000_S1x16x1000_13_0_0 : S26x16x1000.Slices ![13, 0, 0] S1x16x1000
  slices_S26x16x1000_S1x16x1000_14_0_0 : S26x16x1000.Slices ![14, 0, 0] S1x16x1000
  slices_S26x16x1000_S1x16x1000_15_0_0 : S26x16x1000.Slices ![15, 0, 0] S1x16x1000
  slices_S26x16x1000_S1x16x1000_16_0_0 : S26x16x1000.Slices ![16, 0, 0] S1x16x1000
  slices_S26x16x1000_S1x16x1000_17_0_0 : S26x16x1000.Slices ![17, 0, 0] S1x16x1000
  slices_S26x16x1000_S1x16x1000_18_0_0 : S26x16x1000.Slices ![18, 0, 0] S1x16x1000
  slices_S26x16x1000_S1x16x1000_19_0_0 : S26x16x1000.Slices ![19, 0, 0] S1x16x1000
  slices_S26x16x1000_S1x16x1000_20_0_0 : S26x16x1000.Slices ![20, 0, 0] S1x16x1000
  slices_S26x16x1000_S1x16x1000_21_0_0 : S26x16x1000.Slices ![21, 0, 0] S1x16x1000
  slices_S26x16x1000_S1x16x1000_22_0_0 : S26x16x1000.Slices ![22, 0, 0] S1x16x1000
  slices_S26x16x1000_S1x16x1000_23_0_0 : S26x16x1000.Slices ![23, 0, 0] S1x16x1000
  slices_S26x16x1000_S1x16x1000_24_0_0 : S26x16x1000.Slices ![24, 0, 0] S1x16x1000
  slices_S26x16x1000_S1x16x1000_25_0_0 : S26x16x1000.Slices ![25, 0, 0] S1x16x1000
  transposes_S16x1000_S1000x16_1_0 : S16x1000.Transposes [1, 0] S1000x16
  bcast_S1024x16_S1024x16x1_0_1 : S1024x16.BroadcastsInDim S1024x16x1 (![0, 1] : Fin 2 → Fin S1024x16x1.rank)
  concatenates_S1024x16x1_S1024x16x1_S1024x16x1_S1024x16x1_S1024x16x1_S1024x16x1_S1024x16x1_S1024x16x1_S1024x16x1_S1024x16x1_S1024x16x1_S1024x16x1_S1024x16x1_S1024x16x1_S1024x16x1_S1024x16x1_S1024x16x16_d2 : Shape.Concatenates [S1024x16x1, S1024x16x1, S1024x16x1, S1024x16x1, S1024x16x1, S1024x16x1, S1024x16x1, S1024x16x1, S1024x16x1, S1024x16x1, S1024x16x1, S1024x16x1, S1024x16x1, S1024x16x1, S1024x16x1, S1024x16x1] S1024x16x16 2
  concatenates_S1024x16x1_S1024x16x1_S1024x16x1_S1024x16x1_S1024x16x1_S1024x16x1_S1024x16x1_S1024x16x1_S1024x16x1_S1024x16x1_S1024x16x10_d2 : Shape.Concatenates [S1024x16x1, S1024x16x1, S1024x16x1, S1024x16x1, S1024x16x1, S1024x16x1, S1024x16x1, S1024x16x1, S1024x16x1, S1024x16x1] S1024x16x10 2
  concatenates_S1024x16x16_S1024x16x10_S1024x16x26_d2 : Shape.Concatenates [S1024x16x16, S1024x16x10] S1024x16x26 2
  dot_S1024x1000_S1000x16_S1024x16_1_0_0_1_n_n_wf : DotDims.WF S1024x1000 S1000x16 S1024x16 [1] [0] [0] [1] [] []

variable [Facts₀]

def dot_S1024x1000_S1000x16_S1024x16_1_0_0_1_n_n : DotDims S1024x1000 S1000x16 S1024x16 where
  lhsContracting := [1]
  rhsContracting := [0]
  lhsNonContracting := [0]
  rhsNonContracting := [1]
  lhsBatch := []
  rhsBatch := []
  wf := dot_S1024x1000_S1000x16_S1024x16_1_0_0_1_n_n_wf

class Facts : Prop extends Facts₀ where

variable [Facts]
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibGatedMix.lean ====
/-
  A thresholded-logistic mixture of the rows of a small table, read one entry at a time at the exact
  (extended-real) values.

  x is an M×D array and W a T×D table.  Row p of x is scored against every row of W,
      s(p, t) = Σ_d x(p, d) · W(t, d),
  each score becomes a weight  g(s) = logistic(s),  replaced by z wherever logistic(s) < θ,  and the weighted
  rows of W are added back onto x:
      mix(x, W)(p, q) = x(p, q) + Σ_t g(s(p, t)) · W(t, q).
  Entry (p, q) sees x only through its row p.  So the mixture of a block of rows is the same block of the
  mixture of the whole array, and a computation done block of rows by block of rows agrees with one done whole.

  Two spellings of this function are identified with it, for every M, D, T:  the vector unit's (a product with the
  table contracted on its last axis into a zero accumulator, the logistic operation, a compare-and-select against
  splat scalars, a plain product into a zero accumulator, an add), and the host's (two dot_generals, the
  logistic spelt 1 / (1 + exp(−s)) over arrays that hold 1 everywhere, a compare-and-select against arrays that
  hold θ and z everywhere, an add).  Both products are plain finite sums over the extended reals and nothing here
  moves a factor across a sum, so no finiteness of the entries is used.
-/
import Idealize.ShloMosaic.Lib.ValueIdx
import Idealize.ShloMosaic.PureOps.Ideal.Laws
import proofs.«163094_g37374805410623_cont_8to1_b_1071_2_alg».proof.Proof.LibRowDot

noncomputable section

open scoped BigOperators

namespace Cert.GatedMix

open Idealize.ShloMosaic Idealize.ShloMosaic.ValueIdx Cert.RowDot

/-! ## A product with the right operand contracted on its last axis -/

/-- Entry t of (row · Wᵀ) for a T×D matrix W:  the sum over d of row(d) · W(t, d). -/
def rowDotT {D T : Nat} (row : Fin D → EReal) (W : (⟨2, ![T, D]⟩ : Shape).Idx → EReal) (t : Fin T) : EReal :=
  ∑ d : Fin D, row d * W (ix2 t d)

/-- The contraction shape of such a product is one axis. -/
theorem transposed_rank (M K N : Nat) : (DotDims.transposedRhs M K N).contr.rank = 1 := rfl

/-- The left operand's index at output index j keeps j's row. -/
theorem transposed_lhs0 {M K N : Nat} (j : (⟨2, ![M, N]⟩ : Shape).Idx) (u : (DotDims.transposedRhs M K N).contr.Idx) :
    ((DotDims.transposedRhs M K N).lhsIdx j u 0).val = (j 0).val := by
  unfold DotDims.lhsIdx
  rw [dif_neg (show ¬((0 : Fin (⟨2, ![M, K]⟩ : Shape).rank) ∈ (DotDims.transposedRhs M K N).lhsBatch) from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposed_lhs1 {M K N : Nat} (j : (⟨2, ![M, N]⟩ : Shape).Idx) (u : (DotDims.transposedRhs M K N).contr.Idx) :
    ((DotDims.transposedRhs M K N).lhsIdx j u 1).val = (u ⟨0, by rw [transposed_rank]; exact Nat.one_pos⟩).val :=
  (DotDims.transposedRhs M K N).lhsIdx_val_of_single rfl j u

/-- The right operand's row is j's column. -/
theorem transposed_rhs0 {M K N : Nat} (j : (⟨2, ![M, N]⟩ : Shape).Idx) (u : (DotDims.transposedRhs M K N).contr.Idx) :
    ((DotDims.transposedRhs M K N).rhsIdx j u 0).val = (j 1).val := by
  unfold DotDims.rhsIdx
  rw [dif_neg (show ¬((0 : Fin (⟨2, ![N, K]⟩ : Shape).rank) ∈ (DotDims.transposedRhs M K N).rhsBatch) from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposed_rhs1 {M K N : Nat} (j : (⟨2, ![M, N]⟩ : Shape).Idx) (u : (DotDims.transposedRhs M K N).contr.Idx) :
    ((DotDims.transposedRhs M K N).rhsIdx j u 1).val = (u ⟨0, by rw [transposed_rank]; exact Nat.one_pos⟩).val :=
  (DotDims.transposedRhs M K N).rhsIdx_val_of_single rfl j u

/-- The contraction's sum, re-indexed by k < K: row (j 0) of l against row (j 1) of r. -/
theorem transposed_contr_sum {M K N : Nat} (l : (⟨2, ![M, K]⟩ : Shape).Idx → EReal) (r : (⟨2, ![N, K]⟩ : Shape).Idx → EReal)
    (j : (⟨2, ![M, N]⟩ : Shape).Idx) :
    ∑ u : (DotDims.transposedRhs M K N).contr.Idx,
        l ((DotDims.transposedRhs M K N).lhsIdx j u) * r ((DotDims.transposedRhs M K N).rhsIdx j u)
      = rowDotT (rowOf l (j 0)) r (j 1) := by
  unfold rowDotT rowOf
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact transposed_lhs0 j _
      | ⟨1, _⟩ => exact (transposed_lhs1 j _).trans hk)
  have er : (DotDims.transposedRhs M K N).rhsIdx j ((contrEquiv1 (DotDims.transposedRhs M K N) K rfl rfl).symm k) = ix2 (j 1) k :=
    funext fun a => Fin.ext (by
      match a with
      | ⟨0, _⟩ => exact transposed_rhs0 j _
      | ⟨1, _⟩ => exact (transposed_rhs1 j _).trans hk)
  exact congrArg₂ (fun a b : EReal => a * b) (congrArg l el) (congrArg r er)

/-- The vector unit's product into the zero accumulator, at an entry. -/
theorem matmul_transposed_zero_apply {M K N : Nat} {φ₁ φ₂ : FTy} (prec : Option ContractPrecision)
    (lhs : FVec Ideal (⟨2, ![M, K]⟩ : Shape) φ₁) (rhs : FVec Ideal (⟨2, ![N, K]⟩ : Shape) φ₂) (j : (⟨2, ![M, N]⟩ : Shape).Idx) :
    FloatOps.matmul (DotDims.transposedRhs M K N) prec lhs rhs (constant (F := Ideal) (⟨2, ![M, N]⟩ : Shape) .f32 0x00000000#32) j
      = rowDotT (rowOf lhs (j 0)) rhs (j 1) := by
  rw [Ideal.matmul_constant_zero_apply]
  exact transposed_contr_sum lhs rhs j

/-- The host's dot_general, at an entry. -/
theorem dotGeneral_transposed_apply {M K N : Nat} {φ₁ φ₂ : FTy} (prec : Option ContractPrecision) (sched : HostSchedule)
    (lhs : FVec Ideal (⟨2, ![M, K]⟩ : Shape) φ₁) (rhs : FVec Ideal (⟨2, ![N, K]⟩ : Shape) φ₂) (j : (⟨2, ![M, N]⟩ : Shape).Idx) :
    FloatOps.dotGeneral (DotDims.transposedRhs M K N) prec sched lhs rhs j = rowDotT (rowOf lhs (j 0)) rhs (j 1) := by
  rw [Ideal.dotGeneral_apply]
  exact transposed_contr_sum lhs rhs j

/-! ## The mixture -/

/-- The weight of a score: its logistic, replaced by z where that is strictly below θ. -/
def gate (θ z s : EReal) : EReal :=
  Scalar.select (FloatOps.cmpf (F := Ideal) (φ := .f32) .olt (Ideal.logistic s) θ) z (Ideal.logistic s)

/-- One row of the mixture: the row plus the table's rows weighted by the gated scores of the row. -/
def mixRow {D T : Nat} (θ z : EReal) (row : Fin D → EReal) (W : (⟨2, ![T, D]⟩ : Shape).Idx → EReal) (q : Fin D) : EReal :=
  row q + ∑ t : Fin T, gate θ z (rowDotT row W t) * W (ix2 t q)

/-- The mixture of an M×D array with a T×D table: entry (p, q) is entry q of the mixture of row p. -/
def mix {M D T : Nat} (θ z : EReal) (x : (⟨2, ![M, D]⟩ : Shape).Idx → EReal) (W : (⟨2, ![T, D]⟩ : Shape).Idx → EReal) :
    (⟨2, ![M, D]⟩ : Shape).Idx → EReal :=
  fun j => mixRow θ z (rowOf x (j 0)) W (j 1)

/-- Entry (p, q) of the mixture depends on x through row p only: if row p' of x' is row p of x, the entries agree. -/
theorem mix_rows {M M' D T : Nat} (θ z : EReal) (x : (⟨2, ![M, D]⟩ : Shape).Idx → EReal) (x' : (⟨2, ![M', D]⟩ : Shape).Idx → EReal)
    (W : (⟨2, ![T, D]⟩ : Shape).Idx → EReal) (p : Fin M) (p' : Fin M') (q : Fin D)
    (h : ∀ d : Fin D, x' (ix2 p' d) = x (ix2 p d)) :
    mix θ z x' W (ix2 p' q) = mix θ z x W (ix2 p q) := by
  have hr : rowOf x' p' = rowOf x p := funext h
  show mixRow θ z (rowOf x' p') W q = mixRow θ z (rowOf x p) W q
  rw [hr]

/-- The same for whole indices: entry y of the mixture of x' is entry i of the mixture of x when row (y 0) of x' is row
    (i 0) of x and the two indices name the same column. -/
theorem mix_block {M M' D T : Nat} (θ z : EReal) (x : (⟨2, ![M, D]⟩ : Shape).Idx → EReal) (x' : (⟨2, ![M', D]⟩ : Shape).Idx → EReal)
    (W : (⟨2, ![T, D]⟩ : Shape).Idx → EReal) (y : (⟨2, ![M', D]⟩ : Shape).Idx) (i : (⟨2, ![M, D]⟩ : Shape).Idx)
    (hrow : ∀ d : Fin D, x' (ix2 (y 0) d) = x (ix2 (i 0) d)) (hcol : (i 1).val = (y 1).val) :
    mix θ z x' W y = mix θ z x W i := by
  have e0 : rowOf x' (y 0) = rowOf x (i 0) := funext hrow
  have e1 : (y 1 : Fin D) = (i 1 : Fin D) := Fin.ext hcol.symm
  show mixRow θ z (rowOf x' (y 0)) W (y 1) = mixRow θ z (rowOf x (i 0)) W (i 1)
  exact congrArg₂ (fun (r : Fin D → EReal) (q : Fin D) => mixRow θ z r W q) e0 e1

/-! ## The vector unit's spelling -/

/-- A product contracted on the table's last axis into zero, the logistic, the compare-and-select against two splat
    scalars, a plain product with the table into zero, and the add: the mixture, with θ and z the two words' values. -/
theorem vector_form {M D T : Nat} (p₁ p₂ : Option ContractPrecision) (θw zw : BitVec 32)
    (x : FVec Ideal (⟨2, ![M, D]⟩ : Shape) .f32) (W : FVec Ideal (⟨2, ![T, D]⟩ : Shape) .f32) :
    addf x (matmul (DotDims.plain M T D) p₂
        (select
          (cmpf .olt
            (logistic (matmul (DotDims.transposedRhs M D T) p₁ x W (constant (⟨2, ![M, T]⟩ : Shape) .f32 0x00000000#32)))
            (broadcast (⟨2, ![M, T]⟩ : Shape) (Scalar.ofBits (F := Ideal) .f32 θw)))
          (broadcast (⟨2, ![M, T]⟩ : Shape) (Scalar.ofBits (F := Ideal) .f32 zw))
          (logistic (matmul (DotDims.transposedRhs M D T) p₁ x W (constant (⟨2, ![M, T]⟩ : Shape) .f32 0x00000000#32))))
        W (constant (⟨2, ![M, D]⟩ : Shape) .f32 0x00000000#32))
      = mix (Ideal.ofBits .f32 θw) (Ideal.ofBits .f32 zw) x W := by
  funext j
  obtain ⟨p, q, rfl⟩ : ∃ (p : Fin M) (q : Fin D), j = ix2 p q := ⟨j 0, j 1, eq_ix2 j⟩
  rw [addf_apply]
  refine congrArg (x (ix2 p q) + ·) ?_
  refine (matmul_plain_zero_apply p₂ _ W (ix2 p q)).trans ?_
  refine Finset.sum_congr rfl fun t _ => ?_
  refine congrArg (· * W (ix2 t q)) ?_
  show Scalar.select (FloatOps.cmpf .olt (Ideal.logistic (FloatOps.matmul (DotDims.transposedRhs M D T) p₁ x W
      (constant (F := Ideal) (⟨2, ![M, T]⟩ : Shape) .f32 0x00000000#32) (ix2 p t))) (Ideal.ofBits .f32 θw)) (Ideal.ofBits .f32 zw)
      (Ideal.logistic (FloatOps.matmul (DotDims.transposedRhs M D T) p₁ x W
      (constant (F := Ideal) (⟨2, ![M, T]⟩ : Shape) .f32 0x00000000#32) (ix2 p t))) = _
  rw [matmul_transposed_zero_apply]
  rfl

/-! ## The host's spelling -/

/-- The f32 word of 1.0 is the number 1. -/
theorem one_word : Ideal.ofBits .f32 0x3F800000#32 = 1 := by
  simp [Ideal.ofBits, Ideal.ieee, -EReal.coe_mul]; norm_num

/-- Two dot_generals, the logistic spelt 1 / (1 + exp(−s)) over arrays that are 1 everywhere, the compare-and-select
    against arrays that are θ and z everywhere, and the add: the mixture. -/
theorem host_form {M D T : Nat} (p₁ p₂ : Option ContractPrecision) (θ z : EReal)
    (x : FVec Ideal (⟨2, ![M, D]⟩ : Shape) .f32) (W : FVec Ideal (⟨2, ![T, D]⟩ : Shape) .f32)
    (one one' θv zv : FVec Ideal (⟨2, ![M, T]⟩ : Shape) .f32)
    (h1 : ∀ i, one i = 1) (h1' : ∀ i, one' i = 1) (hθ : ∀ i, θv i = θ) (hz : ∀ i, zv i = z) :
    addf x (Host.dotGeneral (DotDims.plain M T D) p₂
        (select
          (cmpf .olt
            (Host.divf one (addf one' (Host.exp (Host.negf (Host.dotGeneral (DotDims.transposedRhs M D T) p₁ x W)))))
            θv)
          zv
          (Host.divf one (addf one' (Host.exp (Host.negf (Host.dotGeneral (DotDims.transposedRhs M D T) p₁ x W))))))
        W)
      = mix θ z x W := by
  funext j
  obtain ⟨p, q, rfl⟩ : ∃ (p : Fin M) (q : Fin D), j = ix2 p q := ⟨j 0, j 1, eq_ix2 j⟩
  rw [addf_apply]
  refine congrArg (x (ix2 p q) + ·) ?_
  refine (dotGeneral_plain_apply p₂ .single _ W (ix2 p q)).trans ?_
  refine Finset.sum_congr rfl fun t _ => ?_
  refine congrArg (· * W (ix2 t q)) ?_
  show Scalar.select (FloatOps.cmpf .olt
      (FloatOps.hostDivf (one (ix2 p t)) (FloatOps.addf (one' (ix2 p t)) (FloatOps.hostUnary .exp (FloatOps.hostNegf
        (FloatOps.dotGeneral (DotDims.transposedRhs M D T) p₁ .single x W (ix2 p t))))))
      (θv (ix2 p t))) (zv (ix2 p t))
      (FloatOps.hostDivf (one (ix2 p t)) (FloatOps.addf (one' (ix2 p t)) (FloatOps.hostUnary .exp (FloatOps.hostNegf
        (FloatOps.dotGeneral (DotDims.transposedRhs M D T) p₁ .single x W (ix2 p t)))))) = _
  rw [dotGeneral_transposed_apply, h1, h1', hθ, hz]
  rfl

end Cert.GatedMix

end
-- ==== Proof.LibFieldProduct.lean ====
/-
  Per-field linear encoders, read one entry at a time at the exact (extended-real) values.

  xs is a stack of F matrices of B rows and V columns, and W a stack of F tables of E rows and V columns.
  Field f's encoder multiplies the matrix xs[f] by the transpose of the table W[f]:
      enc(f, b, e) = Σ_v xs(f, b, v) · W(f, e, v).
  The F results are kept either field first (an F×B×E array) or field last (a B×E×F array, the matrices stacked
  along a new last axis); the two arrays hold the same numbers, (f, b, e) against (b, e, f).

  Entry (f, b, e) sees xs only through row b of xs[f] and W only through row e of W[f].  So a band of rows of one
  field's result is that field's product restricted to the band, and a computation done field by field and band
  by band agrees with one done field by field on whole matrices.  Every sum here is a plain finite sum over the
  extended reals and no factor moves across a sum, so no finiteness of the entries is used.

  Two spellings of one field's product are read at an entry: the vector unit's (one band of xs[f] and the table
  W[f], each with a leading unit axis dropped, multiplied with the table contracted on its last axis into a zero
  accumulator, the unit axis put back), and the host's (the field's band cut out of each stack, the unit axis
  dropped, the table transposed, a plain dot_general, a unit axis added at the end).
-/
import Idealize.ShloMosaic.Lib.ValueIdx
import Idealize.ShloMosaic.Lib.ValueLayout
import Idealize.ShloMosaic.Lib.Pipeline.Value
import Idealize.ShloMosaic.PureOps.Ideal.Laws
import proofs.«163094_g37374805410623_cont_8to1_b_1071_2_alg».proof.Proof.LibRowDot
import proofs.«163094_g37374805410623_cont_8to1_b_1071_2_alg».proof.Proof.LibGatedMix

noncomputable section

open scoped BigOperators

namespace Cert.FieldEnc

open Idealize.ShloMosaic Idealize.ShloMosaic.ValueIdx Cert.RowDot Cert.GatedMix

/-! ## The function -/

/-- Field f's encoder at row b, output e:  Σ_v xs(f, b, v) · W(f, e, v). -/
def enc {nF nB nE nV : Nat} (xs : (⟨3, ![nF, nB, nV]⟩ : Shape).Idx → EReal) (W : (⟨3, ![nF, nE, nV]⟩ : Shape).Idx → EReal)
    (f : Fin nF) (b : Fin nB) (e : Fin nE) : EReal :=
  ∑ v : Fin nV, xs (ix3 f b v) * W (ix3 f e v)

/-- Every field's result, field first: entry (f, b, e). -/
def fieldFirst {nF nB nE nV : Nat} (xs : (⟨3, ![nF, nB, nV]⟩ : Shape).Idx → EReal) (W : (⟨3, ![nF, nE, nV]⟩ : Shape).Idx → EReal) :
    (⟨3, ![nF, nB, nE]⟩ : Shape).Idx → EReal := fun i => enc xs W (i 0) (i 1) (i 2)

/-- Every field's result, field last: entry (b, e, f). -/
def fieldLast {nF nB nE nV : Nat} (xs : (⟨3, ![nF, nB, nV]⟩ : Shape).Idx → EReal) (W : (⟨3, ![nF, nE, nV]⟩ : Shape).Idx → EReal) :
    (⟨3, ![nB, nE, nF]⟩ : Shape).Idx → EReal := fun j => enc xs W (j 2) (j 0) (j 1)

/-- One field's result as a B×E×1 array: entry (b, e, 0). -/
def fieldColumn {nF nB nE nV : Nat} (xs : (⟨3, ![nF, nB, nV]⟩ : Shape).Idx → EReal) (W : (⟨3, ![nF, nE, nV]⟩ : Shape).Idx → EReal)
    (f : Fin nF) : (⟨3, ![nB, nE, 1]⟩ : Shape).Idx → EReal := fun i => enc xs W f (i 0) (i 1)

/-! ## The vector unit's spelling of one band -/

/-- A band of R rows of one field against that field's table, both carrying a leading unit axis: entry (0, p, q)
    of the product is the sum over v of band(0, p, v) · table(0, q, v). -/
theorem band_product_apply {R nE nV : Nat} (prec : Option ContractPrecision)
    (x0 : FVec Ideal (⟨3, ![1, R, nV]⟩ : Shape) .f32) (x1 : FVec Ideal (⟨3, ![1, nE, nV]⟩ : Shape) .f32)
    (h0 : (⟨3, ![1, R, nV]⟩ : Shape).ShapeCasts ⟨2, ![R, nV]⟩) (h1 : (⟨3, ![1, nE, nV]⟩ : Shape).ShapeCasts ⟨2, ![nE, nV]⟩)
    (h2 : (⟨2, ![R, nE]⟩ : Shape).ShapeCasts ⟨3, ![1, R, nE]⟩) (hb : FTy.bf16.bits < FTy.f32.bits)
    (u : Fin 1) (p : Fin R) (q : Fin nE) :
    shapeCast (⟨3, ![1, R, nE]⟩ : Shape)
        (FloatOps.matmul (DotDims.transposedRhs R nV nE) prec
          (truncf .bf16 (shapeCast (⟨2, ![R, nV]⟩ : Shape) x0 h0) hb)
          (truncf .bf16 (shapeCast (⟨2, ![nE, nV]⟩ : Shape) x1 h1) hb)
          (constant (F := Ideal) (⟨2, ![R, nE]⟩ : Shape) .f32 0x00000000#32)) h2 (ix3 u p q)
      = ∑ v : Fin nV, x0 (ix3 (0 : Fin 1) p v) * x1 (ix3 (0 : Fin 1) q v) := by
  rw [shapeCast_ab_1ab_apply, matmul_transposed_zero_apply]
  unfold rowDotT rowOf
  refine Finset.sum_congr rfl fun v _ => ?_
  show shapeCast (⟨2, ![R, nV]⟩ : Shape) x0 h0 (ix2 p v) * shapeCast (⟨2, ![nE, nV]⟩ : Shape) x1 h1 (ix2 q v) = _
  rw [shapeCast_1ab_ab_apply, shapeCast_1ab_ab_apply]

/-! ## The host's spelling of one field -/

/-- One field's band of a stack is a block of it. -/
theorem band_slices {nF a b : Nat} (n : Fin nF) :
    (⟨3, ![nF, a, b]⟩ : Shape).Slices ![n.val, 0, 0] (⟨3, ![1, a, b]⟩ : Shape) :=
  ⟨rfl, fun c => match c with
    | ⟨0, _⟩ => (by show n.val + 1 ≤ nF; have := n.isLt; omega)
    | ⟨1, _⟩ => (by show 0 + a ≤ a; omega)
    | ⟨2, _⟩ => (by show 0 + b ≤ b; omega)⟩

/-- Field n's band of a stack, at (0, i, j), is the stack at (n, i, j). -/
theorem band_apply {nF a b : Nat} (X : (⟨3, ![nF, a, b]⟩ : Shape).Idx → EReal) (n : Fin nF)
    (h : (⟨3, ![nF, a, b]⟩ : Shape).Slices ![n.val, 0, 0] (⟨3, ![1, a, b]⟩ : Shape)) (u : Fin 1) (i : Fin a) (j : Fin b) :
    extractStridedSlice (⟨3, ![1, a, b]⟩ : Shape) ![n.val, 0, 0] X h (ix3 u i j) = X (ix3 n i j) :=
  extractStridedSlice_apply _ X h _ _ fun c => match c with
    | ⟨0, _⟩ => (by show n.val = n.val + u.val; have := u.isLt; omega)
    | ⟨1, _⟩ => (by show i.val = 0 + i.val; omega)
    | ⟨2, _⟩ => (by show j.val = 0 + j.val; omega)

/-- The host's term for one field: the field's bands of xs and W with their unit axis dropped, W's transposed, a
    plain dot_general, and a unit axis added at the end. -/
def hostField {nF nB nE nV : Nat} (prec : Option ContractPrecision) (sched : HostSchedule)
    (c0 : (⟨3, ![1, nB, nV]⟩ : Shape).ShapeCasts ⟨2, ![nB, nV]⟩) (c1 : (⟨3, ![1, nE, nV]⟩ : Shape).ShapeCasts ⟨2, ![nE, nV]⟩)
    (tr : (⟨2, ![nE, nV]⟩ : Shape).Transposes [1, 0] ⟨2, ![nV, nE]⟩)
    (bc : (⟨2, ![nB, nE]⟩ : Shape).BroadcastsInDim ⟨3, ![nB, nE, 1]⟩ ![0, 1])
    (xs : FVec Ideal (⟨3, ![nF, nB, nV]⟩ : Shape) .f32) (W : FVec Ideal (⟨3, ![nF, nE, nV]⟩ : Shape) .f32) (n : Fin nF) :
    FVec Ideal (⟨3, ![nB, nE, 1]⟩ : Shape) .f32 :=
  broadcastInDim (⟨3, ![nB, nE, 1]⟩ : Shape) ![0, 1] bc
    (FloatOps.dotGeneral (DotDims.plain nB nV nE) prec sched
      (shapeCast (⟨2, ![nB, nV]⟩ : Shape) (extractStridedSlice (⟨3, ![1, nB, nV]⟩ : Shape) ![n.val, 0, 0] xs (band_slices n)) c0)
      (transpose (⟨2, ![nV, nE]⟩ : Shape) [1, 0]
        (shapeCast (⟨2, ![nE, nV]⟩ : Shape) (extractStridedSlice (⟨3, ![1, nE, nV]⟩ : Shape) ![n.val, 0, 0] W (band_slices n)) c1) tr))

/-- The host's term for field n is that field's result as a B×E×1 array. -/
theorem hostField_eq {nF nB nE nV : Nat} (prec : Option ContractPrecision) (sched : HostSchedule)
    (c0 : (⟨3, ![1, nB, nV]⟩ : Shape).ShapeCasts ⟨2, ![nB, nV]⟩) (c1 : (⟨3, ![1, nE, nV]⟩ : Shape).ShapeCasts ⟨2, ![nE, nV]⟩)
    (tr : (⟨2, ![nE, nV]⟩ : Shape).Transposes [1, 0] ⟨2, ![nV, nE]⟩)
    (bc : (⟨2, ![nB, nE]⟩ : Shape).BroadcastsInDim ⟨3, ![nB, nE, 1]⟩ ![0, 1])
    (xs : FVec Ideal (⟨3, ![nF, nB, nV]⟩ : Shape) .f32) (W : FVec Ideal (⟨3, ![nF, nE, nV]⟩ : Shape) .f32) (n : Fin nF) :
    hostField prec sched c0 c1 tr bc xs W n = fieldColumn xs W n := by
  funext i
  obtain ⟨b, e, u, rfl⟩ : ∃ (b : Fin nB) (e : Fin nE) (u : Fin 1), i = ix3 b e u := ⟨i 0, i 1, i 2, eq_ix3 i⟩
  unfold hostField fieldColumn enc
  refine (broadcastInDim_apply _ _ _ _ (ix2 b e) fun a => match a with
    | ⟨0, _⟩ => (by show b.val = if nB = 1 then 0 else b.val; have := b.isLt; split <;> omega)
    | ⟨1, _⟩ => (by show e.val = if nE = 1 then 0 else e.val; have := e.isLt; split <;> omega)).trans ?_
  · rw [dotGeneral_plain_apply]
    unfold rowDot rowOf
    refine Finset.sum_congr rfl fun v _ => ?_
    show shapeCast (⟨2, ![nB, nV]⟩ : Shape)
          (extractStridedSlice (⟨3, ![1, nB, nV]⟩ : Shape) ![n.val, 0, 0] xs (band_slices n)) c0 (ix2 b v)
        * transpose (⟨2, ![nV, nE]⟩ : Shape) [1, 0]
          (shapeCast (⟨2, ![nE, nV]⟩ : Shape)
            (extractStridedSlice (⟨3, ![1, nE, nV]⟩ : Shape) ![n.val, 0, 0] W (band_slices n)) c1) tr (ix2 v e)
        = xs (ix3 n b v) * W (ix3 n e v)
    rw [shapeCast_1ab_ab_apply, band_apply, transpose_ix2_apply, shapeCast_1ab_ab_apply, band_apply]

end Cert.FieldEnc

end
-- ==== Proof.KernelValue.lean ====
/-
  What the kernel's result array holds after its run, at the exact (extended-real) values.

  The grid has one point per (field f, band of 256 rows).  At that point the body multiplies the band
  xs[f, 256·band … 256·band + 255, :] by the transpose of the table W[f] and writes the 256×16 product into the
  same band of an F×B×E array.  Entry (f, b, e) of that array is therefore Σ_v xs(f, b, v) · W(f, e, v): the
  bands tile the rows, every entry is written by exactly the point whose band holds its row, and what that point
  writes depends only on row b of xs[f] and row e of W[f].  The lines after the region permute the axes to
  (b, e, f), so the result is every field's encoder output with the field last.
-/
import proofs.«163094_g37374805410623_cont_8to1_b_1071_2_alg».proof.Proof.Gen.KernelIdeal.Frame
import proofs.«163094_g37374805410623_cont_8to1_b_1071_2_alg».proof.Proof.LibFieldProduct
import Idealize.ShloMosaic.Lib.Pipeline.Value
import Idealize.ShloMosaic.Lib.StableHlo.Run

set_option maxRecDepth 16384

noncomputable section

namespace Cert.KernelIdeal.EncValue

open Cert.KernelIdeal Cert.KernelIdeal.Gen Cert.FieldEnc
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## One point's product -/

theorem origin3 : (![0, 0, 0] : Fin 3 → Nat) = fun _ => 0 := funext fun a => by fin_cases a <;> rfl

/-- What the body stores, at entry (0, p, q): row p of the band against row q of the table. -/
theorem stored_apply (x0 : Vec Ideal S1x256x1000 .f32) (x1 : Vec Ideal S1x16x1000 .f32) (u : Fin 1) (p : Fin 256) (q : Fin 16) :
    k0_pay1 (F := Ideal) x0 x1 (ix3 u p q) = ∑ v : Fin 1000, x0 (ix3 (0 : Fin 1) p v) * x1 (ix3 (0 : Fin 1) q v) := by
  unfold k0_pay1
  exact band_product_apply none x0 x1 _ _ _ _ u p q

/-! ## From points to the array -/

/-- The printed index maps over the grid: the band of xs moves with the output's band, the table's block follows the
    field only, and the output's block indices stay in range. -/
theorem index_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) < 26 ∧ win0_2.index t (1 : Fin 3) < 4 ∧ win0_2.index t (2 : Fin 3) = 0 :=
  (by decide +kernel : ∀ t : Fin grid0.N, _)

/-- Every (field, band) is some point's. -/
theorem index_onto : ∀ (f : Fin 26) (r : Fin 4), ∃ t : Fin cfg0.N, win0_2.index t = ![f.val, r.val, 0] :=
  (by decide +kernel : ∀ (f : Fin 26) (r : Fin 4), ∃ t : Fin grid0.N, win0_2.index t = ![f.val, r.val, 0])

/-- The argument arrays as the region finds them, as arrays of extended reals. -/
abbrev xsAt (c : Dev nD) : S26x1024x1000.Idx → EReal := V m c main_arg0
abbrev wAt (c : Dev nD) : S26x16x1000.Idx → EReal := V m c main_arg1

/-- The field-first array of the argument arrays as the region finds them. -/
abbrev target (c : Dev nD) : S26x1024x16.Idx → EReal :=
  fieldFirst (nF := 26) (nB := 1024) (nE := 16) (nV := 1000) (xsAt m c) (wAt m c)

/-- Entry (0, p, q) of what point t stores is entry (field of t, 256 · band of t + p, q) of the field-first array:
    the band's row p is row 256 · band + p of xs[field], and the table's row q is row q of W[field]. -/
theorem point_entry (c : Dev nD) (t : Fin cfg0.N) (j : S1x256x16.Idx) :
    k0_pay1 (F := Ideal) (iblk m c 0 t) (iblk m c 1 t) j = target m c (((cfg0.win 2).blk t).view.emb j) := by
  obtain ⟨e00, e01, e02, e10, e11, e12, l0, l1, e22⟩ := index_facts t
  obtain ⟨u, p, q, rfl⟩ : ∃ (u : Fin 1) (p : Fin 256) (q : Fin 16), j = ix3 u p q := ⟨j 0, j 1, j 2, eq_ix3 j⟩
  have hb : win0_2.index t (1 : Fin 3) * 256 + p.val < 1024 := by have := p.isLt; omega
  have hi : ((cfg0.win 2).blk t).view.emb (ix3 u p q)
      = ix3 (⟨win0_2.index t (0 : Fin 3), l0⟩ : Fin 26) (⟨_, hb⟩ : Fin 1024) q := by
    funext a; apply Fin.ext
    match a with
    | ⟨0, _⟩ => show win0_2.index t (0 : Fin 3) * 1 + 1 * u.val = win0_2.index t (0 : Fin 3); have := u.isLt; omega
    | ⟨1, _⟩ => show win0_2.index t (1 : Fin 3) * 256 + 1 * p.val = win0_2.index t (1 : Fin 3) * 256 + p.val; omega
    | ⟨2, _⟩ => show win0_2.index t (2 : Fin 3) * 16 + 1 * q.val = q.val; omega
  rw [hi]
  refine (stored_apply (iblk m c 0 t) (iblk m c 1 t) u p q).trans ?_
  show _ = ∑ v : Fin 1000, xsAt m c (ix3 (⟨win0_2.index t (0 : Fin 3), l0⟩ : Fin 26) (⟨_, hb⟩ : Fin 1024) v)
      * wAt m c (ix3 (⟨win0_2.index t (0 : Fin 3), l0⟩ : Fin 26) q v)
  refine Finset.sum_congr rfl fun v _ => ?_
  show xsAt m c (((cfg0.win 0).blk t).view.emb (ix3 (0 : Fin 1) p v))
      * wAt m c (((cfg0.win 1).blk t).view.emb (ix3 (0 : Fin 1) q v)) = _
  have h0 : ((cfg0.win 0).blk t).view.emb (ix3 (0 : Fin 1) p v)
      = ix3 (⟨win0_2.index t (0 : Fin 3), l0⟩ : Fin 26) (⟨_, hb⟩ : Fin 1024) v := by
    funext a; apply Fin.ext
    match a with
    | ⟨0, _⟩ => show win0_0.index t (0 : Fin 3) * 1 + 1 * 0 = win0_2.index t (0 : Fin 3); omega
    | ⟨1, _⟩ => show win0_0.index t (1 : Fin 3) * 256 + 1 * p.val = win0_2.index t (1 : Fin 3) * 256 + p.val; omega
    | ⟨2, _⟩ => show win0_0.index t (2 : Fin 3) * 1000 + 1 * v.val = v.val; omega
  have h1 : ((cfg0.win 1).blk t).view.emb (ix3 (0 : Fin 1) q v)
      = ix3 (⟨win0_2.index t (0 : Fin 3), l0⟩ : Fin 26) q v := by
    funext a; apply Fin.ext
    match a with
    | ⟨0, _⟩ => show win0_1.index t (0 : Fin 3) * 1 + 1 * 0 = win0_2.index t (0 : Fin 3); omega
    | ⟨1, _⟩ => show win0_1.index t (1 : Fin 3) * 16 + 1 * q.val = q.val; omega
    | ⟨2, _⟩ => show win0_1.index t (2 : Fin 3) * 1000 + 1 * v.val = v.val; omega
  rw [h0, h1]

/-- What point t writes back is its block of the field-first array. -/
theorem flushed_eq (c : Dev nD) (t : Fin cfg0.N) :
    (dats m 0 c).flushed 2 t = ((cfg0.win 2).blk t).view.read (Elt Ideal) (target m c) := by
  show (cfg0.win 2).cut (grid0.coords t) ((dats m 0 c).after 2 t) = _
  rw [after0_2]
  unfold out0_2
  rw [View.canon_unit_zero origin3]
  simp only [View.ld_unit_zero (S := S1x256x1000) origin3, View.ld_unit_zero (S := S1x16x1000) origin3]
  funext j
  exact point_entry m c t j

/-- An index of the array is in point t's block iff each coordinate is in the block's range on its axis. -/
theorem mem_block (t : Fin cfg0.N) (i : S26x1024x16.Idx) :
    i ∈ ((cfg0.win 2).blk t).view.set ↔ ∀ a : Fin 3, win0_2.index t a * S1x256x16.size a ≤ (i a).val
      ∧ (i a).val < win0_2.index t a * S1x256x16.size a + S1x256x16.size a := by
  show i ∈ ((View.whole main_call0_v0).slice (win0_2.rect t)).set ↔ _
  rw [View.set_slice_whole, Rect.mem_set_unit]
  exact Iff.rfl

/-- The bands tile the rows: entry (f, b, e) is in the block of the point at field f, band b / 256. -/
theorem covered (i : S26x1024x16.Idx) :
    ∃ t : Fin cfg0.N, (cfg0.win 2).flush t = true ∧ i ∈ ((cfg0.win 2).blk t).view.set := by
  have hi0 : (i 0).val < 26 := (i 0).isLt
  have hi1 : (i 1).val < 1024 := (i 1).isLt
  have hi2 : (i 2).val < 16 := (i 2).isLt
  obtain ⟨t, ht⟩ := index_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 16 ≤ (i 2).val ∧ (i 2).val < win0_2.index t (2 : Fin 3) * 16 + 16; omega

/-- After the region the F×B×E array holds every field's encoder output, field first. -/
theorem region_array (c : Dev nD) : (dats m 0 c).arrAt 2 cfg0.N = target m c :=
  (dats m 0 c).arrAt_eq_of_cover 2 (target m c) (fun t _ => flushed_eq m c t) covered

/-! ## The lines after the region -/

/-- The result: the region's array with its axes permuted to (b, e, f). -/
theorem result_eq (c : Dev nD) :
    Pipeline.afterTail₀ cfgs (dats m) 0 (V0 m) [hostOps1] c main_v0
      = fieldLast (nF := 26) (nB := 1024) (nE := 16) (nV := 1000) (xsAt m c) (wAt m c) := by
  unfold Pipeline.afterTail₀
  show StableHlo.after hostOps1 _ (Proc.devRef .tc main_v0) = _
  after_results
  have hz := (Pipeline.withArrays_arr spec0 launch0.win.arr_inj c (V0 m c) (fun w => (dats m 0 c).arrAt w cfg0.N) 2).trans
    (region_array m c)
  show transpose S1024x16x26 [1, 2, 0]
      (Pipeline.withArrays spec0 c (V0 m c) (fun w => (dats m 0 c).arrAt w cfg0.N) (Proc.devRef .tc (Pipeline.arrRef spec0 2)))
      transposes_S26x1024x16_S1024x16x26_1_2_0 = _
  rw [hz]
  funext j
  obtain ⟨b, e, f, rfl⟩ : ∃ (b : Fin 1024) (e : Fin 16) (f : Fin 26), j = ix3 b e f := ⟨j 0, j 1, j 2, eq_ix3 j⟩
  refine (transpose_apply _ _ _ _ (ix3 f b e) fun a => match a with
    | ⟨0, _⟩ => rfl | ⟨1, _⟩ => rfl | ⟨2, _⟩ => rfl).trans ?_
  rfl

/-! ## The run -/

/-- Every weakly fair execution of the kernel's program ends with the result array at every field's encoder output,
    field last, of the argument arrays it was launched with, and those arrays unchanged. -/
theorem run : θ_run defs (onTc (τ := τ) (main (F := Ideal))) ⟨m, fun _ => 0, ρ⟩ fun r => ∀ c : Dev nD,
      r.2.mem ((c.tc : Thread nD τ).loc main_v0)
        = fieldLast (nF := 26) (nB := 1024) (nE := 16) (nV := 1000) (m ((c.tc : Thread nD τ).loc main_arg0))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v0 (Pipeline.mem_restRefs_of main_v0 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.EncValue

end
-- ==== Proof.ReferenceValue.lean ====
/-
  What the reference's result array holds after its run, at the exact (extended-real) values.

  The reference multiplies, field by field, the matrix xs[f] by the transpose of the table W[f], gives each B×E
  product a last axis of extent 1, and lays the 26 products side by side along that axis: the first 16 into a
  B×E×16 array, the last 10 into a B×E×10 array, and those two one after the other.  Entry (b, e, f) of the
  result is therefore entry (b, e, 0) of field f's product, Σ_v xs(f, b, v) · W(f, e, v): for f < 16 through the
  first array at position f, for f ≥ 16 through the second at position f − 16.
-/
import proofs.«163094_g37374805410623_cont_8to1_b_1071_2_alg».proof.Proof.Gen.ReferenceIdeal.Run
import proofs.«163094_g37374805410623_cont_8to1_b_1071_2_alg».proof.Proof.LibFieldProduct
import Idealize.ShloMosaic.Lib.Pipeline.Value

set_option maxRecDepth 16384

noncomputable section

namespace Cert.ReferenceIdeal.EncValue

open Cert.ReferenceIdeal Cert.ReferenceIdeal.Gen Cert.ReferenceIdeal.Value Cert.FieldEnc
open Idealize.ShloMosaic Idealize.ShloMosaic.TcCoe Idealize.ShloMosaic.ValueIdx Idealize.SL.Sem Idealize.ShloMosaic.StableHlo

/-- The reference's term for field n over the argument arrays: that field's product as a B×E×1 array. -/
abbrev piece (xs : S26x1024x1000.Idx → EReal) (W : S26x16x1000.Idx → EReal) (n : Fin 26) : S1024x16x1.Idx → EReal :=
  hostField (nF := 26) (nB := 1024) (nE := 16) (nV := 1000) none .single shapeCasts_S1x1024x1000_S1024x1000
    shapeCasts_S1x16x1000_S16x1000 transposes_S16x1000_S1000x16_1_0 bcast_S1024x16_S1024x16x1_0_1 xs W n

/-- The argument arrays of a valuation, as arrays of extended reals. -/
abbrev xsOf (V0 : Valuation τ sig (Elt Ideal)) : S26x1024x1000.Idx → EReal := V0 (Proc.devRef .tc main_arg0)
abbrev wOf (V0 : Valuation τ sig (Elt Ideal)) : S26x16x1000.Idx → EReal := V0 (Proc.devRef .tc main_arg1)

/-- The first array, at (b, e, n) for n < 16, is field n's encoder output at (b, e). -/
theorem low_apply (V0 : Valuation τ sig (Elt Ideal)) (b : Fin 1024) (e : Fin 16) (n : Fin 16) :
    res_main_v182 V0 (ix3 b e n) = enc (xsOf V0) (wOf V0) (n.castLE (by decide) : Fin 26) b e := by
  unfold res_main_v182
  refine (concatenate_ofFn_unit_apply (t := S1024x16x16) (s₁ := S1024x16x1) 2
    (fun n : Fin 16 => piece (xsOf V0) (wOf V0) (n.castLE (by decide))) _ rfl rfl (ix3 b e n) n rfl
    (ix3 b e (0 : Fin 1)) (fun a ha => ?_)).trans ?_
  · match a, ha with
    | ⟨0, _⟩, _ => rfl
    | ⟨1, _⟩, _ => rfl
    | ⟨2, _⟩, ha => exact absurd rfl ha
  · exact congrFun (hostField_eq _ _ _ _ _ _ _ _ _) _

/-- The second array, at (b, e, n) for n < 10, is field 16 + n's encoder output at (b, e). -/
theorem high_apply (V0 : Valuation τ sig (Elt Ideal)) (b : Fin 1024) (e : Fin 16) (n : Fin 10) :
    res_main_v183 V0 (ix3 b e n) = enc (xsOf V0) (wOf V0) (⟨16 + n.val, by omega⟩ : Fin 26) b e := by
  unfold res_main_v183
  refine (concatenate_ofFn_unit_apply (t := S1024x16x10) (s₁ := S1024x16x1) 2
    (fun n : Fin 10 => piece (xsOf V0) (wOf V0) (⟨16 + n.val, by omega⟩ : Fin 26)) _ rfl rfl (ix3 b e n) n rfl
    (ix3 b e (0 : Fin 1)) (fun a ha => ?_)).trans ?_
  · match a, ha with
    | ⟨0, _⟩, _ => rfl
    | ⟨1, _⟩, _ => rfl
    | ⟨2, _⟩, ha => exact absurd rfl ha
  · exact congrFun (hostField_eq _ _ _ _ _ _ _ _ _) _

/-- The two arrays one after the other hold every field's encoder output, field last. -/
theorem joined_eq (V0 : Valuation τ sig (Elt Ideal)) :
    concatenate S1024x16x26 2 [⟨S1024x16x16, res_main_v182 V0⟩, ⟨S1024x16x10, res_main_v183 V0⟩]
        concatenates_S1024x16x16_S1024x16x10_S1024x16x26_d2
      = fieldLast (nF := 26) (nB := 1024) (nE := 16) (nV := 1000) (xsOf V0) (wOf V0) := by
  funext j
  obtain ⟨b, e, f, rfl⟩ : ∃ (b : Fin 1024) (e : Fin 16) (f : Fin 26), j = ix3 b e f := ⟨j 0, j 1, j 2, eq_ix3 j⟩
  by_cases hf : f.val < 16
  · refine (concatenate_pair_apply_left (t := S1024x16x26) (s₁ := S1024x16x16) (s₂ := S1024x16x10) 2 (res_main_v182 V0)
      (res_main_v183 V0) _ (ix3 b e f) rfl (ix3 b e (⟨f.val, hf⟩ : Fin 16)) fun a => match a with
      | ⟨0, _⟩ => rfl | ⟨1, _⟩ => rfl | ⟨2, _⟩ => rfl).trans ?_
    rw [low_apply]
    exact congrArg (fun g : Fin 26 => enc (xsOf V0) (wOf V0) g b e) (Fin.ext rfl)
  · have hlt : f.val < 26 := f.isLt
    refine (concatenate_pair_apply_right (t := S1024x16x26) (s₁ := S1024x16x16) (s₂ := S1024x16x10) 2 (res_main_v182 V0)
      (res_main_v183 V0) _ (ix3 b e f) rfl rfl (ix3 b e (⟨f.val - 16, by omega⟩ : Fin 10))
      (fun a ha => ?_) (by show (f.val - 16) + 16 = f.val; omega)).trans ?_
    · match a, ha with
      | ⟨0, _⟩, _ => rfl
      | ⟨1, _⟩, _ => rfl
      | ⟨2, _⟩, ha => exact absurd rfl ha
    · rw [high_apply]
      exact congrArg (fun g : Fin 26 => enc (xsOf V0) (wOf V0) g b e) (Fin.ext (by show 16 + (f.val - 16) = f.val; omega))

end Cert.ReferenceIdeal.EncValue

end
-- ==== Proof.lean ====
/-
  Per-field sparse linear encoders: a tiled kernel against a field-by-field reference, equal at the exact
  (extended-real) values.

  Both programs compute, for 26 fields, 1024 rows and 16 outputs,
      out(b, e, f) = Σ_v xs(f, b, v) · W(f, e, v),        v over the 1000 features.
  The kernel visits one (field, band of 256 rows) at a time, multiplies the band of xs[f] by the transpose of W[f]
  on the matrix unit (after a change of float format, which is the identity on exact values) into a field-first
  array, and permutes the axes at the end.  The reference multiplies whole matrices field by field with the host's
  dot_general and stacks the 26 products along a new last axis.  Each side's result array is shown to be the one
  function above of the argument arrays (Proof/KernelValue.lean over the frame's run, Proof/ReferenceValue.lean
  over the reference's run, both through Proof/LibFieldProduct.lean), so from memories that agree on the arguments the
  two results are equal entry by entry.  The sums are finite sums over the extended reals and no law beyond the
  definition of the product is used, so the finiteness of the inputs is not needed.

  The three frames are the programs' runs with the results dropped, and the idealization rewrote nothing.
-/
import proofs.«163094_g37374805410623_cont_8to1_b_1071_2_alg».proof.Defs
import proofs.«163094_g37374805410623_cont_8to1_b_1071_2_alg».proof.Proof.Gen.Kernel
import proofs.«163094_g37374805410623_cont_8to1_b_1071_2_alg».proof.Proof.Gen.Kernel.Skeleton
import proofs.«163094_g37374805410623_cont_8to1_b_1071_2_alg».proof.Proof.Gen.Kernel.Launch
import proofs.«163094_g37374805410623_cont_8to1_b_1071_2_alg».proof.Proof.Gen.Kernel.Points
import proofs.«163094_g37374805410623_cont_8to1_b_1071_2_alg».proof.Proof.Gen.Kernel.Frame
import proofs.«163094_g37374805410623_cont_8to1_b_1071_2_alg».proof.Proof.Gen.KernelIdeal
import proofs.«163094_g37374805410623_cont_8to1_b_1071_2_alg».proof.Proof.Gen.KernelIdeal.Skeleton
import proofs.«163094_g37374805410623_cont_8to1_b_1071_2_alg».proof.Proof.Gen.KernelIdeal.Launch
import proofs.«163094_g37374805410623_cont_8to1_b_1071_2_alg».proof.Proof.Gen.KernelIdeal.Points
import proofs.«163094_g37374805410623_cont_8to1_b_1071_2_alg».proof.Proof.Gen.KernelIdeal.Frame
import proofs.«163094_g37374805410623_cont_8to1_b_1071_2_alg».proof.Proof.Gen.ReferenceIdeal
import proofs.«163094_g37374805410623_cont_8to1_b_1071_2_alg».proof.Proof.Gen.Pre_finite_inputs
import proofs.«163094_g37374805410623_cont_8to1_b_1071_2_alg».proof.Proof.Gen.ReferenceIdeal.Run
import proofs.«163094_g37374805410623_cont_8to1_b_1071_2_alg».proof.Proof.KernelValue
import proofs.«163094_g37374805410623_cont_8to1_b_1071_2_alg».proof.Proof.ReferenceValue
import Idealize.ShloMosaic.Adequacy
import Idealize.ShloMosaic.Init

noncomputable section

namespace Cert.Proof

open Idealize.ShloMosaic Idealize.ShloMosaic.TcCoe Idealize.SL.Sem Cert.FieldEnc

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both result arrays are every field's encoder output, field last, of the argument arrays; the arguments agree. -/
theorem algebraic : Cert.algebraic_KernelIdeal_ReferenceIdeal := by
  intro m ρ m' ρ' _ hagree
  refine ⟨_, Cert.KernelIdeal.EncValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.EncValue.joined_eq]
  show fieldLast (nF := 26) (nB := 1024) (nE := 16) (nV := 1000)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
